-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S1 : Shape := ⟨1, ![1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S4096 .f32) (main_arg4 : FVec F S1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S1 : Shape := ⟨1, ![1]⟩
abbrev S8192x4096 : Shape := ⟨2, ![8192, 4096]⟩
abbrev S1x4096 : Shape := ⟨2, ![1, 4096]⟩
abbrev S1x1 : Shape := ⟨2, ![1, 1]⟩
abbrev S8192x1 : Shape := ⟨2, ![8192, 1]⟩
abbrev S256x4096 : Shape := ⟨2, ![256, 4096]⟩
abbrev S256x1 : Shape := ⟨2, ![256, 1]⟩
abbrev S256 : Shape := ⟨1, ![256]⟩
abbrev S128x4096 : Shape := ⟨2, ![128, 4096]⟩
abbrev S128x1 : Shape := ⟨2, ![128, 1]⟩

abbrev nBuf : Space → Nat
  | .hbm => 17
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S1, .f32⟩
  | .hbm, ⟨5, _⟩ => ⟨S8192x4096, .f32⟩
  | .hbm, ⟨6, _⟩ => ⟨S4096x4096, .f32⟩
  | .hbm, ⟨7, _⟩ => ⟨S4096x4096, .bf16⟩
  | .hbm, ⟨8, _⟩ => ⟨S1x4096, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S1x1, .f32⟩
  | .hbm, ⟨13, _⟩ => ⟨S8192x4096, .bf16⟩
  | .hbm, ⟨14, _⟩ => ⟨S8192x1, .f32⟩
  | .hbm, ⟨15, _⟩ => ⟨S8192x4096, .f32⟩
  | .hbm, ⟨16, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S256x1, .f32⟩
  | .local _ .vmem, ⟨6, _⟩ => ⟨S256x1, .f32⟩
  | .local _ .vmem, ⟨7, _⟩ => ⟨S128x4096, .bf16⟩
  | .local _ .vmem, ⟨8, _⟩ => ⟨S128x4096, .bf16⟩
  | .local _ .vmem, ⟨9, _⟩ => ⟨S4096x4096, .bf16⟩
  | .local _ .vmem, ⟨10, _⟩ => ⟨S128x1, .f32⟩
  | .local _ .vmem, ⟨11, _⟩ => ⟨S128x1, .f32⟩
  | .local _ .vmem, ⟨12, _⟩ => ⟨S1x4096, .f32⟩
  | .local _ .vmem, ⟨13, _⟩ => ⟨S1x1, .f32⟩
  | .local _ .vmem, ⟨14, _⟩ => ⟨S128x4096, .f32⟩
  | .local _ .vmem, ⟨15, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4x2048x4096_S8192x4096 : S4x2048x4096.ShapeCasts S8192x4096
  transposes_S4096x4096_S4096x4096_1_0 : S4096x4096.Transposes [1, 0] S4096x4096
  bitsLt_bf16_f32 : FTy.bits .bf16 < FTy.bits .f32
  shapeCasts_S4096_S1x4096 : S4096.ShapeCasts S1x4096
  bcast_S1_S4096_0 : S1.BroadcastsInDim S4096 (![0] : Fin 1 → Fin S4096.rank)
  shapeCasts_S1_S1x1 : S1.ShapeCasts S1x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  broadcasts_S128x1_S128x4096 : S128x1.Broadcasts S128x4096
  broadcasts_S1x4096_S128x4096 : S1x4096.Broadcasts S128x4096
  shapeCasts_S8192x4096_S4x2048x4096 : S8192x4096.ShapeCasts S4x2048x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .bf16 = 32 ∨ (Rect.block (s := S8192x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .bf16 = 32 ∨ (Rect.block (s := S8192x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S8192x1.size a
  hwx1_2 : ∀ i : grid1.Coords, EltTy.bits .f32 = 32 ∨ (Rect.block (s := S8192x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x4096.size a ≤ S8192x4096.size a
  hwx1_5 : ∀ i : grid1.Coords, EltTy.bits .f32 = 32 ∨ (Rect.block (s := S8192x4096) S128x4096.size (cc1_transform_5 i) (hinb1_5 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8_0) S256x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8_0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_1) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S128x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1 : Shape := ⟨1, ![1]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S1, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4x2048x4096, .f32⟩
  | .hbm, ⟨39, _⟩ => ⟨S4x2048x4096, .f32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S4x2048x4096, .f32⟩
  | .hbm, ⟨44, _⟩ => ⟨S4x2048x4096, .f32⟩
  | .hbm, ⟨45, _⟩ => ⟨S4x2048x4096, .f32⟩
  | .hbm, ⟨46, _⟩ => ⟨S1x1x4096, .f32⟩
  | .hbm, ⟨47, _⟩ => ⟨S4x2048x4096, .f32⟩
  | .hbm, ⟨48, _⟩ => ⟨S4x2048x4096, .f32⟩
  | .hbm, ⟨49, _⟩ => ⟨S1x1x1, .f32⟩
  | .hbm, ⟨50, _⟩ => ⟨S4x2048x4096, .f32⟩
  | .hbm, ⟨51, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1_S1x1x1_2 : S1.BroadcastsInDim S1x1x1 (![2] : Fin 1 → Fin S1x1x1.rank)
  bcast_S1x1x1_S4x2048x4096_0_1_2 : S1x1x1.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelRun.lean ====
/-
  The idealized kernel's run with its result named.

  @main is a stretch of host operations (reshapes of the arguments, the weight transposed, the bias scaled), the
  quantizing region, the matrix-product region, and one more reshape. Every weakly fair execution terminates with every
  buffer that is not scoped to a region at the contents the run folds to (`Gen.W4`): the launch memory, each host stretch
  applied to it, and each region's arrays at what its write-backs leave. This module states that for the result buffer
  beside the arguments; the value of the fold at the result buffer is read elsewhere.
-/
import proofs.«162988_j44513041056293_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the run's last fold and
    the arguments as launched. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Result

end
-- ==== Proof.KernelEntry.lean ====
/-
  What the two regions find in their arrays, and what the last reshape leaves.

  Before the first region the host reshapes the activations [4, 2048, 4096] to [8192, 4096] and the normalisation weights
  [4096] to one row, transposes the weights (the change of float format after it is the identity at the ideal instance),
  multiplies the bias by the weight scale and lays it out as a row, and lays the weight scale out as [1, 1]. The first
  region writes the quantized array and the column of scales and leaves every other buffer alone, so the second region
  finds those two as the first left them and the rest as the host wrote them. After the second region one reshape takes
  its [8192, 4096] result back to [4, 2048, 4096].
-/
import proofs.«162988_j44513041056293_2_alg».proof.Proof.Gen.KernelIdeal.Frame

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## Before the first region -/

/-- The activations as [8192, 4096]. -/
theorem acts (c : Dev nD) : (V1 m ρ c main_v0 : S8192x4096.Idx → EReal)
    = shapeCast S8192x4096 (m ((c : Thread nD τ).loc main_arg0)) shapeCasts_S4x2048x4096_S8192x4096 := by
  show StableHlo.after hostOps0 (W0 m ρ c) (Proc.devRef .tc main_v0) = _
  dsimp only [hostOps0]
  after_results
  try rfl

/-- The normalisation weights as one row. -/
theorem normWeights (c : Dev nD) : (V1 m ρ c main_v3 : S1x4096.Idx → EReal)
    = shapeCast S1x4096 (m ((c : Thread nD τ).loc main_arg2)) shapeCasts_S4096_S1x4096 := by
  show StableHlo.after hostOps0 (W0 m ρ c) (Proc.devRef .tc main_v3) = _
  dsimp only [hostOps0]
  after_results
  try rfl

/-- The weights transposed (and their float format changed). -/
theorem weightsT (c : Dev nD) : (V1 m ρ c main_v2 : S4096x4096.Idx → EReal)
    = truncf (F := Ideal) .bf16 (transpose S4096x4096 [1, 0] (m ((c : Thread nD τ).loc main_arg1)) transposes_S4096x4096_S4096x4096_1_0)
        bitsLt_bf16_f32 := by
  show StableHlo.after hostOps0 (W0 m ρ c) (Proc.devRef .tc main_v2) = _
  dsimp only [hostOps0]
  after_results
  try rfl

/-- The bias times the weight scale, as one row. -/
theorem biasRow (c : Dev nD) : (V1 m ρ c main_v6 : S1x4096.Idx → EReal)
    = shapeCast S1x4096 (mulf (F := Ideal) (s := S4096) (φ := .f32) (m ((c : Thread nD τ).loc main_arg3))
        (broadcastInDim (α := EReal) S4096 ![0] bcast_S1_S4096_0 (m ((c : Thread nD τ).loc main_arg4)))) shapeCasts_S4096_S1x4096 := by
  show StableHlo.after hostOps0 (W0 m ρ c) (Proc.devRef .tc main_v6) = _
  dsimp only [hostOps0]
  after_results
  try rfl

/-- The weight scale as [1, 1]. -/
theorem scale11 (c : Dev nD) : (V1 m ρ c main_v7 : S1x1.Idx → EReal)
    = shapeCast S1x1 (m ((c : Thread nD τ).loc main_arg4)) shapeCasts_S1_S1x1 := by
  show StableHlo.after hostOps0 (W0 m ρ c) (Proc.devRef .tc main_v7) = _
  dsimp only [hostOps0]
  after_results
  try rfl

/-! ## Between the regions -/

/-- The second region finds the quantized array as the first region's write-backs left it. -/
theorem quantized (c : Dev nD) : V2 m ρ c main_v8_0 = (dat0 (V1 m ρ) c).arrAt 2 cfg0.N := W2_arr m ρ c 2
/-- The same for the column of scales. -/
theorem invScales (c : Dev nD) : V2 m ρ c main_v8_1 = (dat0 (V1 m ρ) c).arrAt 3 cfg0.N := W2_arr m ρ c 3
/-- The first region writes neither the transposed weights, nor the bias row, nor the weight scale. -/
theorem weightsT_kept (c : Dev nD) : V2 m ρ c main_v2 = V1 m ρ c main_v2 :=
  W2_of_ne m ρ c main_v2 (fun w => by fin_cases w <;> decide)
theorem biasRow_kept (c : Dev nD) : V2 m ρ c main_v6 = V1 m ρ c main_v6 :=
  W2_of_ne m ρ c main_v6 (fun w => by fin_cases w <;> decide)
theorem scale11_kept (c : Dev nD) : V2 m ρ c main_v7 = V1 m ρ c main_v7 :=
  W2_of_ne m ρ c main_v7 (fun w => by fin_cases w <;> decide)

/-! ## After the second region -/

/-- The second region's result array is what its write-backs left. -/
theorem product (c : Dev nD) : W3 m ρ c (Proc.devRef .tc main_v9) = (dat1 (V2 m ρ) c).arrAt 5 cfg1.N := W3_arr m ρ c 5

/-- The program's result is that array as [4, 2048, 4096]. -/
theorem result (c : Dev nD) : (W4 m ρ c (Proc.devRef .tc main_v10) : S4x2048x4096.Idx → EReal)
    = shapeCast S4x2048x4096 (W3 m ρ c (Proc.devRef .tc main_v9) : S8192x4096.Idx → EReal) shapeCasts_S8192x4096_S4x2048x4096 := by
  show StableHlo.after hostOps2 (W3 m ρ c) (Proc.devRef .tc main_v10) = _
  dsimp only [hostOps2]
  after_results
  try rfl

end Cert.KernelIdeal.Entry

end
-- ==== Proof.TokenConsts.lean ====
/-
  The float constants the two programs spell, as the extended reals their bit patterns denote: 127, −128, 4096, −∞, 0,
  and the two small positive constants (the one added under the root, and the floor of the quantization scale), each a
  dyadic rational.
-/
import Idealize.ShloMosaic.PureOps.Ideal

noncomputable section

open scoped BigOperators

namespace Cert.TokenQuant

open Idealize.ShloMosaic

/-! ## The constants the two programs spell -/

theorem word_127 : Ideal.ofBits .f32 0x42FE0000#32 = ((127 : ℝ) : EReal) := by
  simp [Ideal.ofBits, Ideal.ieee, -EReal.coe_mul]; norm_num
theorem word_neg128 : Ideal.ofBits .f32 0xC3000000#32 = ((-128 : ℝ) : EReal) := by
  simp [Ideal.ofBits, Ideal.ieee, -EReal.coe_mul]; norm_num
theorem word_4096 : Ideal.ofBits .f32 0x45800000#32 = ((4096 : ℝ) : EReal) := by
  simp [Ideal.ofBits, Ideal.ieee, -EReal.coe_mul]; norm_num
theorem word_negInf : Ideal.ofBits .f32 0xFF800000#32 = (⊥ : EReal) := by
  simp [Ideal.ofBits, Ideal.ieee]
theorem word_zero : Ideal.ofBits .f32 0x00000000#32 = (0 : EReal) := by
  simp [Ideal.ofBits, Ideal.ieee]
/-- The constant under the root, 9.99999997·10⁻⁷, is the dyadic 8796093 · 2⁻⁴³. -/
theorem word_rmsEps : Ideal.ofBits .f32 0x358637BD#32 = ((8796093 * (2 : ℝ) ^ (-43 : ℤ) : ℝ) : EReal) := by
  simp [Ideal.ofBits, Ideal.ieee, -EReal.coe_mul]
/-- The floor of the scale, 9.99999974·10⁻⁶, is the dyadic 10995116 · 2⁻⁴⁰. -/
theorem word_scaleFloor : Ideal.ofBits .f32 0x3727C5AC#32 = ((10995116 * (2 : ℝ) ^ (-40 : ℤ) : ℝ) : EReal) := by
  simp [Ideal.ofBits, Ideal.ieee, -EReal.coe_mul]

end Cert.TokenQuant

end
-- ==== Proof.TokenMath.lean ====
/-
  The mathematics of one token of the quantized linear layer, on the extended reals.

  A token is a row `v` of `K` entries; `g` is the normalisation weight. The row is normalised by the reciprocal square
  root of its mean square plus a small constant, `h k = v k · rsqrt (Σ v² / 4096 + ε) · g k`; its scale is
  `a = max (max_k |h k|) ε'`; it is quantized to `q k = clip (round (h k · (127 / a)), −128, 127)`. Against a weight
  column `w`, a bias `b` and a weight scale `s`, one program computes

      (Σ_k q k · w k) · ((a · (1/127)) · s) + b · s            (dequantize by a product, the bias scaled beforehand)

  and the other

      ((Σ_k q k · w k) / (127 / a) + b) · s                    (dequantize by the quotient, the scale applied last).

  On the extended reals these agree when `v`, `g`, `w`, `b` and `s` are real numbers: then the mean square is a
  nonnegative real, the constant under the root makes it positive, so `h` is real, `a` is a real number at least `ε' > 0`,
  `q` lies between −128 and 127 whatever is rounded, the contraction is real, and the two expressions are one by the
  field laws of ℝ (distributivity is what fails at the infinities, so finiteness is used exactly here).
-/
import proofs.«162988_j44513041056293_2_alg».proof.Proof.TokenConsts

noncomputable section

open scoped BigOperators

namespace Cert.TokenQuant

open Idealize.ShloMosaic

variable {K : ℕ}

/-! ## The functions of a row -/

/-- The reciprocal square root of the row's mean square plus the constant. -/
def normFactor (v : Fin K → EReal) : EReal :=
  Ideal.rsqrt (Ideal.div (∑ k, v k * v k) (Ideal.ofBits .f32 0x45800000#32) + Ideal.ofBits .f32 0x358637BD#32)

/-- The normalised, weighted row. -/
def normed (v g : Fin K → EReal) (k : Fin K) : EReal := v k * normFactor v * g k

/-- The maximum of a row, folded from −∞. -/
def rowMax (f : Fin K → EReal) : EReal :=
  (Finset.univ : Finset (Fin K)).fold max (Ideal.ofBits .f32 0xFF800000#32) f

/-- The quantization scale's denominator: the largest absolute value of the normalised row, at least the floor. -/
def scale (v g : Fin K → EReal) : EReal :=
  max (rowMax fun k => max (normed v g k) (-(normed v g k))) (Ideal.ofBits .f32 0x3727C5AC#32)

/-- The quantized row: rounded to the nearest integer (ties to even) after scaling to ±127, clipped to [−128, 127]. -/
def quant (v g : Fin K → EReal) (k : Fin K) : EReal :=
  min (Ideal.ofBits .f32 0x42FE0000#32) (max (Ideal.ofBits .f32 0xC3000000#32)
    (Ideal.liftRound Ideal.roundHalfEven (normed v g k * Ideal.div (Ideal.ofBits .f32 0x42FE0000#32) (scale v g))))

/-- Dequantized by a product with `a · (1/127) · s`, the bias scaled beforehand. -/
def byProduct (v g w : Fin K → EReal) (b s : EReal) : EReal :=
  (∑ k, quant v g k * w k) * ((scale v g * ((1 / 127 : ℝ) : EReal)) * s) + b * s

/-- Dequantized by the quotient by `127 / a`, the bias added, the scale applied last. -/
def byQuotient (v g w : Fin K → EReal) (b s : EReal) : EReal :=
  (Ideal.div (∑ k, quant v g k * w k) (Ideal.div (Ideal.ofBits .f32 0x42FE0000#32) (scale v g)) + b) * s

/-! ## Real inputs give real intermediate values -/

/-- The coercion from the reals commutes with a finite sum. -/
theorem coe_sum (f : Fin K → ℝ) : (∑ k, (f k : EReal)) = ((∑ k, f k : ℝ) : EReal) := by
  induction (Finset.univ : Finset (Fin K)) using Finset.induction_on with
  | empty => simp
  | insert a s ha ih => rw [Finset.sum_insert ha, Finset.sum_insert ha, ih, EReal.coe_add]

/-- A sum of products of real numbers is a real number. -/
theorem sum_mul_real (x y : Fin K → EReal) (hx : ∀ k, ∃ r : ℝ, x k = r) (hy : ∀ k, ∃ r : ℝ, y k = r) :
    ∃ r : ℝ, ∑ k, x k * y k = r := by
  choose xr hxr using hx
  choose yr hyr using hy
  refine ⟨∑ k, xr k * yr k, ?_⟩
  rw [← coe_sum]
  exact Finset.sum_congr rfl fun k _ => by rw [hxr k, hyr k, EReal.coe_mul]

/-- The mean square of a real row plus the constant is a positive real, so its reciprocal root is real. -/
theorem normFactor_real (v : Fin K → EReal) (hv : ∀ k, ∃ r : ℝ, v k = r) : ∃ r : ℝ, normFactor v = r := by
  choose vr hvr using hv
  have hs : ∑ k, v k * v k = ((∑ k, vr k * vr k : ℝ) : EReal) := by
    rw [← coe_sum]
    exact Finset.sum_congr rfl fun k _ => by rw [hvr k, EReal.coe_mul]
  have hnn : 0 ≤ ∑ k, vr k * vr k := Finset.sum_nonneg fun k _ => mul_self_nonneg _
  have hpos : 0 < (∑ k, vr k * vr k) * (1 / 4096) + 8796093 * (2 : ℝ) ^ (-43 : ℤ) := by positivity
  unfold normFactor
  rw [hs, word_4096, word_rmsEps, Ideal.div_coe (by norm_num : (4096 : ℝ) ≠ 0), ← EReal.coe_mul, ← EReal.coe_add,
    Ideal.rsqrt_coe, if_neg (not_lt.mpr hpos.le), if_neg hpos.ne']
  exact ⟨_, rfl⟩

/-- The normalised row of a real row and a real weight is real. -/
theorem normed_real (v g : Fin K → EReal) (hv : ∀ k, ∃ r : ℝ, v k = r) (hg : ∀ k, ∃ r : ℝ, g k = r) (k : Fin K) :
    ∃ r : ℝ, normed v g k = r := by
  obtain ⟨n, hn⟩ := normFactor_real v hv
  obtain ⟨a, ha⟩ := hv k
  obtain ⟨c, hc⟩ := hg k
  exact ⟨a * n * c, by unfold normed; rw [hn, ha, hc, EReal.coe_mul, EReal.coe_mul]⟩

/-- The scale of a real normalised row is a positive real: the fold of real numbers from −∞ is below +∞, and the
    floor keeps it above a positive number. -/
theorem scale_real (v g : Fin K → EReal) (hh : ∀ k, ∃ r : ℝ, normed v g k = r) :
    ∃ a : ℝ, 0 < a ∧ scale v g = a := by
  have hlt : rowMax (fun k => max (normed v g k) (-(normed v g k))) < ⊤ := by
    unfold rowMax
    rw [Finset.fold_max_lt]
    refine ⟨by rw [word_negInf]; exact bot_lt_top, fun k _ => ?_⟩
    obtain ⟨r, hr⟩ := hh k
    rw [hr, ← EReal.coe_neg]
    exact max_lt (EReal.coe_lt_top _) (EReal.coe_lt_top _)
  have hq : (0 : ℝ) < 10995116 * (2 : ℝ) ^ (-40 : ℤ) := by positivity
  unfold scale
  rw [word_scaleFloor]
  generalize rowMax (fun k => max (normed v g k) (-(normed v g k))) = M at hlt
  generalize (10995116 * (2 : ℝ) ^ (-40 : ℤ) : ℝ) = q at hq
  have h1 : max M (q : EReal) ≠ ⊤ := (max_lt hlt (EReal.coe_lt_top q)).ne
  have h2 : max M (q : EReal) ≠ ⊥ := ne_of_gt (lt_of_lt_of_le (EReal.bot_lt_coe q) (le_max_right _ _))
  refine ⟨(max M (q : EReal)).toReal, ?_, (EReal.coe_toReal h1 h2).symm⟩
  have hle := EReal.toReal_le_toReal (le_max_right M (q : EReal)) (EReal.coe_ne_bot q) h1
  rw [EReal.toReal_coe] at hle
  exact lt_of_lt_of_le hq hle

/-- Whatever is clipped to [−128, 127] is a real number. -/
theorem quant_real (v g : Fin K → EReal) (k : Fin K) : ∃ r : ℝ, quant v g k = r := by
  unfold quant
  rw [word_127, word_neg128]
  generalize Ideal.liftRound Ideal.roundHalfEven _ = X
  have h1 : min ((127 : ℝ) : EReal) (max ((-128 : ℝ) : EReal) X) ≠ ⊤ :=
    ne_of_lt (lt_of_le_of_lt (min_le_left _ _) (EReal.coe_lt_top _))
  have h2 : min ((127 : ℝ) : EReal) (max ((-128 : ℝ) : EReal) X) ≠ ⊥ :=
    ne_of_gt (lt_of_lt_of_le (EReal.bot_lt_coe (-128))
      (le_min (EReal.coe_le_coe_iff.mpr (by norm_num)) (le_max_left _ _)))
  exact ⟨_, (EReal.coe_toReal h1 h2).symm⟩

/-! ## The two dequantizations agree on real inputs -/

/-- For a real row, a real normalisation weight, a real weight column, a real bias and a real scale, dequantizing by the
    product with `a · (1/127) · s` (bias scaled beforehand) is dequantizing by the quotient by `127 / a` (scale last). -/
theorem byProduct_eq_byQuotient (v g w : Fin K → EReal) (b s : EReal)
    (hv : ∀ k, ∃ r : ℝ, v k = r) (hg : ∀ k, ∃ r : ℝ, g k = r) (hw : ∀ k, ∃ r : ℝ, w k = r)
    (hb : ∃ r : ℝ, b = r) (hs : ∃ r : ℝ, s = r) :
    byProduct v g w b s = byQuotient v g w b s := by
  obtain ⟨a, ha, hsc⟩ := scale_real v g (normed_real v g hv hg)
  obtain ⟨D, hD⟩ := sum_mul_real (quant v g) w (quant_real v g) hw
  obtain ⟨br, rfl⟩ := hb
  obtain ⟨sr, rfl⟩ := hs
  have h127 : (127 : ℝ) * (1 / a) ≠ 0 := by positivity
  unfold byProduct byQuotient
  rw [hD, hsc, word_127, Ideal.div_coe ha.ne', ← EReal.coe_mul (127 : ℝ) (1 / a), Ideal.div_coe h127]
  simp only [← EReal.coe_mul, ← EReal.coe_add]
  refine congrArg _ ?_
  field_simp

end Cert.TokenQuant

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibRowReduceColumn.lean ====
/-
  A reduction along the rows of an [a, b] array, kept as a column [a, 1] (what `keepdims=True` leaves), read at an
  index at the ideal instance: the row's sum is the sum over the row's `b` entries, and the row's maximum taken from
  −∞ (and once more against −∞, as a softmax spells it) is the fold of `max` over them. Any sizes.
-/
import Idealize.ShloMosaic.PureOps.Ideal.Laws
import Idealize.ShloMosaic.Lib.ValueLayout
import proofs.«162988_j44513041056293_2_alg».proof.Proof.LibKeepdimsColumn

noncomputable section

open scoped BigOperators

namespace Cert.Lib.RowReduceColumn

open Idealize.ShloMosaic Idealize.ShloMosaic.ValueIdx

/-- The reduced index `p` of an [a, b] array reduced along its rows, with column `d` put back, is (p, d). -/
theorem lift_row {a b : ℕ} (h : (⟨2, ![a, b]⟩ : Shape).Reduces [1] (⟨1, ![a]⟩ : Shape)) (p : Fin a)
    (d : Fin ((⟨2, ![a, b]⟩ : Shape).size 1)) : h.lift (ix1 p) d = ix2 p (⟨d.val, d.isLt⟩ : Fin b) := by
  funext c; apply Fin.ext
  fin_cases c <;> rfl

/-- A row sum kept as a column, read at (p, u): the sum of row `p`'s entries. -/
theorem rowSum_column_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) :=
  (Cert.LibKeepdims.shapeCast_a_a1_apply _ hc p u).trans
    ((Ideal.multiReduction_add_single v _ h hφ hacc (ix1 p)).trans
      (Finset.sum_congr rfl fun d _ => congrArg v (lift_row h p d)))

/-- A row maximum from −∞, taken once more against −∞ and kept as a column, read at (p, u): the fold of `max` over
    row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (maximumf (broadcast ⟨1, ![a]⟩ (Scalar.ofBits (F := Ideal) .f32 0xFF800000#32))
        (multiReduction .maximumf [1] ⟨1, ![a]⟩ v 0xFF800000#32 h hφ hacc)) hc (ix2 p u)
      = max (Ideal.ofBits .f32 0xFF800000#32)
          ((Finset.univ : Finset (Fin b)).fold max (Ideal.ofBits .f32 0xFF800000#32) (fun k => v (ix2 p k))) :=
  (Cert.LibKeepdims.shapeCast_a_a1_apply _ hc p u).trans
    (congrArg (max (Ideal.ofBits .f32 0xFF800000#32))
      ((Ideal.multiReduction_maximumf_single v _ h hφ hacc (ix1 p)).trans
        (congrArg (fun f => (Finset.univ : Finset (Fin b)).fold max (Ideal.ofBits .f32 0xFF800000#32) f)
          (funext fun k => congrArg v (lift_row h p k)))))

end Cert.Lib.RowReduceColumn

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLaneMaxColumn.lean ====
/-
  A maximum along the rows of an [a, b] array, taken from −∞ and kept as a column [a, 1] (what `keepdims=True` leaves of
  `jnp.max(…, axis=-1)`), read at an index at the ideal instance: the fold of `max` from −∞ over the row's `b` entries.
  Any sizes. (The companion of the row sum kept as a column; a softmax's form, with one more maximum against −∞ in
  front, is a different term.)
-/
import Idealize.ShloMosaic.PureOps.Ideal.Laws
import Idealize.ShloMosaic.Lib.ValueLayout
import proofs.«162988_j44513041056293_2_alg».proof.Proof.LibKeepdimsColumn
import proofs.«162988_j44513041056293_2_alg».proof.Proof.LibRowReduceColumn

noncomputable section

namespace Cert.Lib.LaneMaxColumn

open Idealize.ShloMosaic Idealize.ShloMosaic.ValueIdx

/-- A row maximum from −∞ kept as a column, read at (p, u): the fold of `max` from −∞ over row `p`'s entries. -/
theorem laneMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ v 0xFF800000#32 h hφ hacc) hc (ix2 p u)
      = (Finset.univ : Finset (Fin b)).fold max (Ideal.ofBits .f32 0xFF800000#32) (fun k => v (ix2 p k)) :=
  (Cert.LibKeepdims.shapeCast_a_a1_apply _ hc p u).trans
    ((Ideal.multiReduction_maximumf_single v _ h hφ hacc (ix1 p)).trans
      (congrArg (fun f => (Finset.univ : Finset (Fin b)).fold max (Ideal.ofBits .f32 0xFF800000#32) f)
        (funext fun k => congrArg v (Cert.Lib.RowReduceColumn.lift_row h p k))))

end Cert.Lib.LaneMaxColumn

end
-- ==== Proof.QuantBody.lean ====
/-
  The quantizing kernel's body, read at an index of its block, at the ideal instance.

  The body loads a block of 256 rows of the activations and the one row of normalisation weights, and stores two results:
  the quantized block and the column of per-row scales divided by 127. Each depends on ONE row of the block only: row
  `p` of the quantized block is the quantization of row `p`, and entry `p` of the column is that row's scale times 1/127.
  The row functions are those of the token mathematics (`Cert.TokenQuant`): the lane sum is the sum over the row, the
  lane maximum from −∞ is the fold of `max` over the row, a column broadcast across the lanes reads the column's entry of
  the row, and the weight row broadcast down the rows reads the weight of the lane.
-/
import proofs.«162988_j44513041056293_2_alg».proof.Proof.Gen.KernelIdeal.Skeleton
import proofs.«162988_j44513041056293_2_alg».proof.Proof.TokenMath
import proofs.«162988_j44513041056293_2_alg».proof.Proof.LibRowReduceColumn
import proofs.«162988_j44513041056293_2_alg».proof.Proof.LibColumnBroadcast
import proofs.«162988_j44513041056293_2_alg».proof.Proof.LibLaneMaxColumn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.QuantBody

open Cert.KernelIdeal Cert.KernelIdeal.Gen Idealize.ShloMosaic Idealize.ShloMosaic.ValueIdx Cert.TokenQuant

/-- Row `p` of a block of 256 rows. -/
abbrev rowOf (x0 : Vec Ideal S256x4096 .f32) (p : Fin 256) : Fin 4096 → EReal := fun k => x0 (ix2 p k)

/-- The one row of weights. -/
abbrev weightOf (x1 : Vec Ideal S1x4096 .f32) : Fin 4096 → EReal := fun k => x1 (ix2 (0 : Fin 1) k)

/-- The kernel's named reciprocal denotes the rational 1/127 at the ideal instance, by the certificate's table. -/
theorem inv_127 : Named.named (F := Ideal) Cert.KernelIdeal.κ "inv_127" (φ := .f32) 0x3C010204#32 = ((1 / 127 : ℝ) : EReal) :=
  IdealRules.named_const.ideal_named_scalar _ _ _ _ rfl

/-- A lane maximum from −∞ kept as a column, read at (p, u): the row's maximum in the token mathematics' spelling. -/
theorem laneMax_column {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ v 0xFF800000#32 h hφ hacc) hc (ix2 p u)
      = rowMax (fun k : Fin b => v (ix2 p k)) :=
  Cert.Lib.LaneMaxColumn.laneMax_column_apply v h hφ hacc hc p u

/-- The normalised, weighted block at (p, k): the normalised row `p` at lane `k`. -/
theorem normed_at (x0 : Vec Ideal S256x4096 .f32) (x1 : Vec Ideal S1x4096 .f32) (p : Fin 256) (k : Fin 4096) :
    k0_pay1 (F := Ideal) x0 x1 (ix2 p k) = normed (rowOf x0 p) (weightOf x1) k := by
  have hsum := Cert.Lib.RowReduceColumn.rowSum_column_apply (mulf (F := Ideal) x0 x0) reduces_S256x4096_S256 (.inl rfl) rfl
    shapeCasts_S256_S256x1 p (0 : Fin 1)
  unfold k0_pay1
  simp only [shapeCast_self]
  rw [mulf_apply, mulf_apply, broadcastTo_a1_ab_apply, broadcastTo_1b_ab_apply]
  exact (congrArg (fun S => x0 (ix2 p k) * Ideal.rsqrt (Ideal.div S (Ideal.ofBits .f32 0x45800000#32)
    + Ideal.ofBits .f32 0x358637BD#32) * x1 (ix2 (0 : Fin 1) k)) hsum).trans rfl

/-- The column of scales at (p, u): the scale of row `p`. -/
theorem scale_at (x0 : Vec Ideal S256x4096 .f32) (x1 : Vec Ideal S1x4096 .f32) (p : Fin 256) (u : Fin 1) :
    k0_pay2 (F := Ideal) x0 x1 (ix2 p u) = scale (rowOf x0 p) (weightOf x1) := by
  have hmax := laneMax_column (absf (F := Ideal) (k0_pay1 (F := Ideal) x0 x1)) reduces_S256x4096_S256 (.inl rfl) rfl
    shapeCasts_S256_S256x1 p u
  have hrow : (fun k : Fin 4096 => absf (F := Ideal) (k0_pay1 (F := Ideal) x0 x1) (ix2 p k))
      = fun k => max (normed (rowOf x0 p) (weightOf x1) k) (-(normed (rowOf x0 p) (weightOf x1) k)) := funext fun k =>
    (Ideal.absf_def (k0_pay1 (F := Ideal) x0 x1 (ix2 p k))).trans (by rw [normed_at])
  unfold k0_pay2 scale
  refine (maximumf_apply _ _ _).trans ?_
  refine congrArg₂ max ?_ ?_
  · exact hmax.trans (congrArg rowMax hrow)
  · rfl

/-- The quantized block at (p, k): the quantized row `p` at lane `k` (a change of float format is the identity). -/
theorem quant_at (x0 : Vec Ideal S256x4096 .f32) (x1 : Vec Ideal S1x4096 .f32) (p : Fin 256) (k : Fin 4096) :
    k0_pay3 (F := Ideal) x0 x1 (ix2 p k) = quant (rowOf x0 p) (weightOf x1) k := by
  unfold k0_pay3 quant
  refine (truncf_apply (ψ := .bf16) _ bitsLt_bf16_f32 (ix2 p k)).trans ?_
  refine (minimumf_apply _ _ _).trans ?_
  refine congrArg₂ min rfl ?_
  refine (maximumf_apply _ _ _).trans ?_
  refine congrArg₂ max rfl ?_
  refine congrArg (Ideal.liftRound Ideal.roundHalfEven) ?_
  refine (mulf_apply _ _ _).trans ?_
  refine congrArg₂ (· * ·) (normed_at x0 x1 p k) ?_
  refine (broadcastTo_a1_ab_apply _ _ p k).trans ?_
  refine (divf_apply _ _ _).trans ?_
  exact congrArg₂ Ideal.div rfl (scale_at x0 x1 p (0 : Fin 1))

/-- The column the second store writes, at (p, u): the scale of row `p` times 1/127. -/
theorem invScale_at (x0 : Vec Ideal S256x4096 .f32) (x1 : Vec Ideal S1x4096 .f32) (p : Fin 256) (u : Fin 1) :
    k0_pay4 (F := Ideal) x0 x1 (ix2 p u) = scale (rowOf x0 p) (weightOf x1) * ((1 / 127 : ℝ) : EReal) := by
  unfold k0_pay4
  refine (mulf_apply _ _ _).trans ?_
  exact congrArg₂ (· * ·) (scale_at x0 x1 p u) inv_127

end Cert.KernelIdeal.QuantBody

end
-- ==== Proof.QuantArray.lean ====
/-
  From blocks to arrays, for the quantizing region.

  The region runs 32 grid points; point `t` reads rows 256·t … 256·t + 255 of the activations (and the one row of
  normalisation weights) and writes back the same rows of the quantized array and of the column of scales. Since each
  stored row depends on its own input row only, the block written at `t` is block `t` of ONE function of the whole input
  arrays — row `r` of the quantized array is the quantization of row `r` of the activations, entry `r` of the column is
  that row's scale times 1/127 — and the 32 blocks tile the 8192 rows (row `r` lies in block `r / 256`). So after the
  region the two output arrays ARE those functions of the arrays the region found.
-/
import proofs.«162988_j44513041056293_2_alg».proof.Proof.Gen.KernelIdeal.Frame
import proofs.«162988_j44513041056293_2_alg».proof.Proof.QuantBody

set_option maxRecDepth 16384

noncomputable section

namespace Cert.KernelIdeal.QuantArray

open Cert.KernelIdeal Cert.KernelIdeal.Gen Cert.KernelIdeal.QuantBody Cert.TokenQuant
open Idealize.ShloMosaic Idealize.ShloMosaic.TcCoe Idealize.ShloMosaic.ValueIdx Idealize.SL.Sem
open Idealize.ShloMosaic.Pipeline (Dat Cfg Window)

/-- The quantized array as a function of the activations `X` and the weight row `R`: row by row. -/
def quantArr (X : S8192x4096.Idx → EReal) (R : S1x4096.Idx → EReal) : S8192x4096.Idx → EReal := fun i =>
  quant (fun k : Fin 4096 => X (ix2 (⟨(i 0).val, idx2_lt0 i⟩ : Fin 8192) k)) (fun k : Fin 4096 => R (ix2 (0 : Fin 1) k))
    (⟨(i 1).val, idx2_lt1 i⟩ : Fin 4096)

/-- The column of scales over 127 as a function of the same arrays. -/
def invScaleArr (X : S8192x4096.Idx → EReal) (R : S1x4096.Idx → EReal) : S8192x1.Idx → EReal := fun i =>
  scale (fun k : Fin 4096 => X (ix2 (⟨(i 0).val, idx2_lt0 i⟩ : Fin 8192) k)) (fun k : Fin 4096 => R (ix2 (0 : Fin 1) k))
    * ((1 / 127 : ℝ) : EReal)

theorem hz : (![0, 0] : Fin 2 → Nat) = fun _ => 0 := funext fun a => by fin_cases a <;> rfl

variable (V : (c : Dev nD) → (b : Ref sig .tc) → Buf (Elt Ideal) ((c : Thread nD τ).loc b))

/-- The printed index maps over the grid: the activations and both outputs move down one block of rows per point;
    the weight row stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the activations' block at point `t` is row 256·t + p of the array. -/
theorem act_row (c : Dev nD) (t : Fin cfg0.N) (p : Fin 256) (hr : t.val * 256 + p.val < 8192) :
    rowOf (iblk0 V c 0 t) p = fun k : Fin 4096 => V c main_v0 (ix2 (⟨t.val * 256 + p.val, hr⟩ : Fin 8192) k) := by
  obtain ⟨e00, e01, -⟩ := idx_facts t
  funext k
  show V c main_v0 (((cfg0.win 0).blk t).view.emb (ix2 p k)) = _
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * k.val = k.val; omega

/-- The weight row's block at any point is the weight row. -/
theorem weight_row (c : Dev nD) (t : Fin cfg0.N) :
    weightOf (iblk0 V c 1 t) = fun k : Fin 4096 => V c main_v3 (ix2 (0 : Fin 1) k) := by
  obtain ⟨-, -, e10, e11, -⟩ := idx_facts t
  funext k
  show V c main_v3 (((cfg0.win 1).blk t).view.emb (ix2 (0 : Fin 1) k)) = _
  refine congrArg _ (funext fun a => Fin.ext ?_)
  match a with
  | ⟨0, _⟩ => show win0_1.index t (0 : Fin 2) * 1 + 1 * 0 = 0; omega
  | ⟨1, _⟩ => show win0_1.index t (1 : Fin 2) * 4096 + 1 * k.val = k.val; omega

/-- What point `t` writes back to the quantized array is block `t` of `quantArr` of the arrays the region found. -/
theorem flushed_quant (c : Dev nD) (t : Fin cfg0.N) :
    (dat0 V c).flushed 2 t = ((cfg0.win 2).blk t).view.read (Elt Ideal) (quantArr (V c main_v0) (V c main_v3)) := by
  show (cfg0.win 2).cut (grid0.coords t) ((dat0 V c).after 2 t) = _
  rw [after0_2]
  unfold out0_2
  rw [View.canon_unit_zero hz]
  simp only [View.ld_unit_zero (S := S256x4096) hz, View.ld_unit_zero (S := S1x4096) hz]
  obtain ⟨-, -, -, -, e20, e21, -⟩ := idx_facts t
  have ht : t.val < 32 := t.isLt
  funext j
  obtain ⟨p, k, rfl⟩ : ∃ (p : Fin 256) (k : Fin 4096), j = ix2 p k := ⟨j 0, j 1, eq_ix2 j⟩
  have hr : t.val * 256 + p.val < 8192 := by have := p.isLt; omega
  show k0_pay3 (F := Ideal) (iblk0 V c 0 t) (iblk0 V c 1 t) (ix2 p k)
    = quantArr (V c main_v0) (V c main_v3) (((cfg0.win 2).blk t).view.emb (ix2 p k))
  refine (quant_at (iblk0 V c 0 t) (iblk0 V c 1 t) p k).trans ?_
  rw [act_row V c t p hr, weight_row V c t]
  unfold quantArr
  have h0 : (⟨((((cfg0.win 2).blk t).view.emb (ix2 p k)) 0).val, idx2_lt0 _⟩ : Fin 8192) = ⟨t.val * 256 + p.val, hr⟩ :=
    Fin.ext (show win0_2.index t (0 : Fin 2) * 256 + 1 * p.val = t.val * 256 + p.val by omega)
  have h1 : (⟨((((cfg0.win 2).blk t).view.emb (ix2 p k)) 1).val, idx2_lt1 _⟩ : Fin 4096) = k :=
    Fin.ext (show win0_2.index t (1 : Fin 2) * 4096 + 1 * k.val = k.val by omega)
  rw [h0, h1]

/-- What point `t` writes back to the column is block `t` of `invScaleArr` of the arrays the region found. -/
theorem flushed_invScale (c : Dev nD) (t : Fin cfg0.N) :
    (dat0 V c).flushed 3 t = ((cfg0.win 3).blk t).view.read (Elt Ideal) (invScaleArr (V c main_v0) (V c main_v3)) := by
  show (cfg0.win 3).cut (grid0.coords t) ((dat0 V c).after 3 t) = _
  rw [after0_3]
  unfold out0_3
  rw [View.canon_unit_zero hz]
  simp only [View.ld_unit_zero (S := S256x4096) hz, View.ld_unit_zero (S := S1x4096) hz]
  obtain ⟨-, -, -, -, -, -, e30, e31⟩ := idx_facts t
  have ht : t.val < 32 := t.isLt
  funext j
  obtain ⟨p, u, rfl⟩ : ∃ (p : Fin 256) (u : Fin 1), j = ix2 p u := ⟨j 0, j 1, eq_ix2 j⟩
  have hr : t.val * 256 + p.val < 8192 := by have := p.isLt; omega
  show k0_pay4 (F := Ideal) (iblk0 V c 0 t) (iblk0 V c 1 t) (ix2 p u)
    = invScaleArr (V c main_v0) (V c main_v3) (((cfg0.win 3).blk t).view.emb (ix2 p u))
  refine (invScale_at (iblk0 V c 0 t) (iblk0 V c 1 t) p u).trans ?_
  rw [act_row V c t p hr, weight_row V c t]
  unfold invScaleArr
  have h0 : (⟨((((cfg0.win 3).blk t).view.emb (ix2 p u)) 0).val, idx2_lt0 _⟩ : Fin 8192) = ⟨t.val * 256 + p.val, hr⟩ :=
    Fin.ext (show win0_3.index t (0 : Fin 2) * 256 + 1 * p.val = t.val * 256 + p.val by omega)
  rw [h0]

/-- An index of the quantized array is in point `t`'s block iff each coordinate is in the block's range. -/
theorem mem_blk_quant (t : Fin cfg0.N) (i : S8192x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v8_0).slice (win0_2.rect t)).set ↔ _
  rw [View.set_slice_whole, Rect.mem_set_unit]
  exact Iff.rfl

theorem mem_blk_invScale (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v8_1).slice (win0_3.rect t)).set ↔ _
  rw [View.set_slice_whole, Rect.mem_set_unit]
  exact Iff.rfl

/-- Row `r` of the quantized array lies in the block of point `r / 256`. -/
theorem cover_quant (i : S8192x4096.Idx) :
    ∃ t : Fin cfg0.N, (cfg0.win 2).flush t = true ∧ i ∈ ((cfg0.win 2).blk t).view.set := by
  have hi0 : (i 0).val < 8192 := idx2_lt0 i
  have hi1 : (i 1).val < 4096 := idx2_lt1 i
  let t : Fin cfg0.N := ⟨(i 0).val / 256, by show (i 0).val / 256 < 32; omega⟩
  obtain ⟨-, -, -, -, e20, e21, -⟩ := idx_facts t
  have htv : t.val = (i 0).val / 256 := rfl
  refine ⟨t, flush0_2 t, ?_⟩
  rw [mem_blk_quant]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

theorem cover_invScale (i : S8192x1.Idx) :
    ∃ t : Fin cfg0.N, (cfg0.win 3).flush t = true ∧ i ∈ ((cfg0.win 3).blk t).view.set := by
  have hi0 : (i 0).val < 8192 := idx2_lt0 i
  have hi1 : (i 1).val < 1 := idx2_lt1 i
  let t : Fin cfg0.N := ⟨(i 0).val / 256, by show (i 0).val / 256 < 32; omega⟩
  obtain ⟨-, -, -, -, -, -, e30, e31⟩ := idx_facts t
  have htv : t.val = (i 0).val / 256 := rfl
  refine ⟨t, flush0_3 t, ?_⟩
  rw [mem_blk_invScale]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega

/-- After the region the quantized array is `quantArr` of the arrays the region found. -/
theorem quant_array (c : Dev nD) : (dat0 V c).arrAt 2 cfg0.N = quantArr (V c main_v0) (V c main_v3) :=
  (dat0 V c).arrAt_eq_of_cover 2 (quantArr (V c main_v0) (V c main_v3)) (fun t _ => flushed_quant V c t) cover_quant

/-- After the region the column is `invScaleArr` of the arrays the region found. -/
theorem invScale_array (c : Dev nD) : (dat0 V c).arrAt 3 cfg0.N = invScaleArr (V c main_v0) (V c main_v3) :=
  (dat0 V c).arrAt_eq_of_cover 3 (invScaleArr (V c main_v0) (V c main_v3)) (fun t _ => flushed_invScale V c t) cover_invScale

end Cert.KernelIdeal.QuantArray

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.MatmulBody.lean ====
/-
  The matrix-product kernel's body, read at an index of its block, at the ideal instance.

  The body loads a block of 128 quantized rows, the whole transposed weight matrix, the block's column of scales, the row
  of scaled biases and the one weight scale, and stores `(q · Wᵀ) · (scale · ws) + bias`. At (p, o) that is the
  contraction of row `p` of the quantized block with column `o` of the weights — a sum over the 4096 lanes, no rounding
  and no order at the ideal instance —, times the row's scale times the weight scale, plus the bias of column `o`.
-/
import proofs.«162988_j44513041056293_2_alg».proof.Proof.Gen.KernelIdeal.Skeleton
import proofs.«162988_j44513041056293_2_alg».proof.Proof.LibSplitContraction
import proofs.«162988_j44513041056293_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MatmulBody

open Cert.KernelIdeal Cert.KernelIdeal.Gen Idealize.ShloMosaic Idealize.ShloMosaic.ValueIdx

local notation "dotQW" => dot_S128x4096_S4096x4096_S128x4096_1_0_0_1_n_n

/-! The product's index maps: the left operand is read at (row of the output, lane), the right at (lane, column). -/

theorem lhs_row (j : S128x4096.Idx) (q : (dotQW).contr.Idx) : ((dotQW).lhsIdx j q 0).val = (j 0).val := by
  unfold DotDims.lhsIdx
  rw [dif_neg (show ¬(0 : Fin S128x4096.rank) ∈ (dotQW).lhsBatch by decide),
    dif_pos (show (0 : Fin S128x4096.rank) ∈ (dotQW).lhsNonContracting by decide)]
  rfl
theorem lhs_lane (j : S128x4096.Idx) (q : (dotQW).contr.Idx) : ((dotQW).lhsIdx j q 1).val = (q ⟨0, by decide⟩).val :=
  (dotQW).lhsIdx_val_of_single rfl j q
theorem rhs_lane (j : S128x4096.Idx) (q : (dotQW).contr.Idx) : ((dotQW).rhsIdx j q 0).val = (q ⟨0, by decide⟩).val :=
  (dotQW).rhsIdx_val_of_single rfl j q
theorem rhs_col (j : S128x4096.Idx) (q : (dotQW).contr.Idx) : ((dotQW).rhsIdx j q 1).val = (j 1).val := by
  unfold DotDims.rhsIdx
  rw [dif_neg (show ¬(1 : Fin S4096x4096.rank) ∈ (dotQW).rhsBatch by decide),
    dif_pos (show (1 : Fin S4096x4096.rank) ∈ (dotQW).rhsNonContracting by decide)]
  rfl

/-- The stored block at (p, o). -/
theorem out_at (x0 : Vec Ideal S128x4096 .bf16) (x1 : Vec Ideal S4096x4096 .bf16) (x2 : Vec Ideal S128x1 .f32)
    (ws : Vec Ideal S1x1 .f32) (brow : Vec Ideal S1x4096 .f32) (p : Fin 128) (o : Fin 4096) :
    k1_pay1 (F := Ideal) x0 x1 x2 ws brow (ix2 p o)
      = (∑ k : Fin 4096, x0 (ix2 p k) * x1 (ix2 k o)) * (x2 (ix2 p (0 : Fin 1)) * ws (ix2 (0 : Fin 1) (0 : Fin 1)))
        + brow (ix2 (0 : Fin 1) o) := by
  unfold k1_pay1
  simp only [shapeCast_self]
  rw [addf_apply, mulf_apply, broadcastTo_a1_ab_apply, mulf_apply]
  simp only [broadcastTo_1b_ab_apply]
  refine congrArg₂ (· + ·) (congrArg₂ (· * ·) ?_ rfl) rfl
  exact Cert.Lib.SplitContraction.matmul_zero_at dotQW rfl rfl lhs_row lhs_lane rhs_lane rhs_col none x0 x1 p o

end Cert.KernelIdeal.MatmulBody

end
-- ==== Proof.MatmulArray.lean ====
/-
  From blocks to the array, for the matrix-product region.

  The region runs 64 grid points; point `t` reads rows 128·t … 128·t + 127 of the quantized array and of the column of
  scales, the whole weight matrix, the bias row and the weight scale, and writes back the same rows of the result. Each
  stored row depends on its own row of the quantized array and of the column only, so the block written at `t` is block
  `t` of ONE function of the whole arrays, and the 64 blocks tile the 8192 rows (row `r` lies in block `r / 128`).
-/
import proofs.«162988_j44513041056293_2_alg».proof.Proof.Gen.KernelIdeal.Frame
import proofs.«162988_j44513041056293_2_alg».proof.Proof.MatmulBody

set_option maxRecDepth 16384

noncomputable section

open scoped BigOperators

namespace Cert.KernelIdeal.MatmulArray

open Cert.KernelIdeal Cert.KernelIdeal.Gen Cert.KernelIdeal.MatmulBody
open Idealize.ShloMosaic Idealize.ShloMosaic.TcCoe Idealize.ShloMosaic.ValueIdx Idealize.SL.Sem
open Idealize.ShloMosaic.Pipeline (Dat Cfg Window)

/-- The result array as a function of the quantized array `Q`, the transposed weights `Wt`, the column `A` of scales
    over 127, the row `B` of scaled biases and the weight scale `S`: entry (r, o) is the contraction of row `r` of `Q`
    with column `o` of `Wt`, times `A r · S`, plus `B o`. -/
def outArr (Q : S8192x4096.Idx → EReal) (Wt : S4096x4096.Idx → EReal) (A : S8192x1.Idx → EReal)
    (B : S1x4096.Idx → EReal) (S : S1x1.Idx → EReal) : S8192x4096.Idx → EReal := fun i =>
  (∑ k : Fin 4096, Q (ix2 (⟨(i 0).val, idx2_lt0 i⟩ : Fin 8192) k) * Wt (ix2 k (⟨(i 1).val, idx2_lt1 i⟩ : Fin 4096)))
      * (A (ix2 (⟨(i 0).val, idx2_lt0 i⟩ : Fin 8192) (0 : Fin 1)) * S (ix2 (0 : Fin 1) (0 : Fin 1)))
    + B (ix2 (0 : Fin 1) (⟨(i 1).val, idx2_lt1 i⟩ : Fin 4096))

theorem hz : (![0, 0] : Fin 2 → Nat) = fun _ => 0 := funext fun a => by fin_cases a <;> rfl

variable (V : (c : Dev nD) → (b : Ref sig .tc) → Buf (Elt Ideal) ((c : Thread nD τ).loc b))

/-- The printed index maps over the grid: the quantized rows, the column of scales and the result move down one block
    of rows per point; the weights, the bias row and the weight scale stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `outArr` of the arrays the region found. -/
theorem flushed_out (c : Dev nD) (t : Fin cfg1.N) :
    (dat1 V c).flushed 5 t = ((cfg1.win 5).blk t).view.read (Elt Ideal)
      (outArr (V c main_v8_0) (V c main_v2) (V c main_v8_1) (V c main_v6) (V c main_v7)) := by
  show (cfg1.win 5).cut (grid1.coords t) ((dat1 V c).after 5 t) = _
  rw [after1_5]
  unfold out1_5
  rw [View.canon_unit_zero hz]
  simp only [View.ld_unit_zero (S := S128x4096) hz, View.ld_unit_zero (S := S4096x4096) hz,
    View.ld_unit_zero (S := S128x1) hz, View.ld_unit_zero (S := S1x1) hz, View.ld_unit_zero (S := S1x4096) hz]
  obtain ⟨e00, e01, e10, e11, e20, e21, e30, e31, e40, e41, e50, e51⟩ := idx_facts t
  have ht : t.val < 64 := t.isLt
  funext j
  obtain ⟨p, o, rfl⟩ : ∃ (p : Fin 128) (o : Fin 4096), j = ix2 p o := ⟨j 0, j 1, eq_ix2 j⟩
  have hr : t.val * 128 + p.val < 8192 := by have := p.isLt; omega
  show k1_pay1 (F := Ideal) (iblk1 V c 0 t) (iblk1 V c 1 t) (iblk1 V c 2 t) (iblk1 V c 4 t) (iblk1 V c 3 t) (ix2 p o)
    = outArr (V c main_v8_0) (V c main_v2) (V c main_v8_1) (V c main_v6) (V c main_v7) (((cfg1.win 5).blk t).view.emb (ix2 p o))
  refine (out_at (iblk1 V c 0 t) (iblk1 V c 1 t) (iblk1 V c 2 t) (iblk1 V c 4 t) (iblk1 V c 3 t) p o).trans ?_
  unfold outArr
  have h0 : (⟨((((cfg1.win 5).blk t).view.emb (ix2 p o)) 0).val, idx2_lt0 _⟩ : Fin 8192) = ⟨t.val * 128 + p.val, hr⟩ :=
    Fin.ext (show win1_5.index t (0 : Fin 2) * 128 + 1 * p.val = t.val * 128 + p.val by omega)
  have h1 : (⟨((((cfg1.win 5).blk t).view.emb (ix2 p o)) 1).val, idx2_lt1 _⟩ : Fin 4096) = o :=
    Fin.ext (show win1_5.index t (1 : Fin 2) * 4096 + 1 * o.val = o.val by omega)
  rw [h0, h1]
  -- each loaded block read where the result's row and column say
  have hq : ∀ k : Fin 4096, iblk1 V c 0 t (ix2 p k) = V c main_v8_0 (ix2 (⟨t.val * 128 + p.val, hr⟩ : Fin 8192) k) := fun k => by
    show V c main_v8_0 (((cfg1.win 0).blk t).view.emb (ix2 p k)) = _
    refine congrArg _ (funext fun a => Fin.ext ?_)
    match a with
    | ⟨0, _⟩ => show win1_0.index t (0 : Fin 2) * 128 + 1 * p.val = t.val * 128 + p.val; omega
    | ⟨1, _⟩ => show win1_0.index t (1 : Fin 2) * 4096 + 1 * k.val = k.val; omega
  have hw : ∀ k : Fin 4096, iblk1 V c 1 t (ix2 k o) = V c main_v2 (ix2 k o) := fun k => by
    show V c main_v2 (((cfg1.win 1).blk t).view.emb (ix2 k o)) = _
    refine congrArg _ (funext fun a => Fin.ext ?_)
    match a with
    | ⟨0, _⟩ => show win1_1.index t (0 : Fin 2) * 4096 + 1 * k.val = k.val; omega
    | ⟨1, _⟩ => show win1_1.index t (1 : Fin 2) * 4096 + 1 * o.val = o.val; omega
  have ha : iblk1 V c 2 t (ix2 p (0 : Fin 1)) = V c main_v8_1 (ix2 (⟨t.val * 128 + p.val, hr⟩ : Fin 8192) (0 : Fin 1)) := by
    show V c main_v8_1 (((cfg1.win 2).blk t).view.emb (ix2 p (0 : Fin 1))) = _
    refine congrArg _ (funext fun a => Fin.ext ?_)
    match a with
    | ⟨0, _⟩ => show win1_2.index t (0 : Fin 2) * 128 + 1 * p.val = t.val * 128 + p.val; omega
    | ⟨1, _⟩ => show win1_2.index t (1 : Fin 2) * 1 + 1 * 0 = 0; omega
  have hs : iblk1 V c 4 t (ix2 (0 : Fin 1) (0 : Fin 1)) = V c main_v7 (ix2 (0 : Fin 1) (0 : Fin 1)) := by
    show V c main_v7 (((cfg1.win 4).blk t).view.emb (ix2 (0 : Fin 1) (0 : Fin 1))) = _
    refine congrArg _ (funext fun a => Fin.ext ?_)
    match a with
    | ⟨0, _⟩ => show win1_4.index t (0 : Fin 2) * 1 + 1 * 0 = 0; omega
    | ⟨1, _⟩ => show win1_4.index t (1 : Fin 2) * 1 + 1 * 0 = 0; omega
  have hb : iblk1 V c 3 t (ix2 (0 : Fin 1) o) = V c main_v6 (ix2 (0 : Fin 1) o) := by
    show V c main_v6 (((cfg1.win 3).blk t).view.emb (ix2 (0 : Fin 1) o)) = _
    refine congrArg _ (funext fun a => Fin.ext ?_)
    match a with
    | ⟨0, _⟩ => show win1_3.index t (0 : Fin 2) * 1 + 1 * 0 = 0; omega
    | ⟨1, _⟩ => show win1_3.index t (1 : Fin 2) * 4096 + 1 * o.val = o.val; omega
  rw [ha, hs, hb]
  refine congrArg₂ (· + ·) (congrArg₂ (· * ·) (Finset.sum_congr rfl fun k _ => ?_) rfl) rfl
  rw [hq k, hw k]

/-- An index of the result is in point `t`'s block iff each coordinate is in the block's range. -/
theorem mem_blk_out (t : Fin cfg1.N) (i : S8192x4096.Idx) :
    i ∈ ((cfg1.win 5).blk t).view.set ↔ ∀ a : Fin 2, win1_5.index t a * S128x4096.size a ≤ (i a).val ∧ (i a).val < win1_5.index t a * S128x4096.size a + S128x4096.size a := by
  show i ∈ ((View.whole main_v9).slice (win1_5.rect t)).set ↔ _
  rw [View.set_slice_whole, Rect.mem_set_unit]
  exact Iff.rfl

/-- Row `r` of the result lies in the block of point `r / 128`. -/
theorem cover_out (i : S8192x4096.Idx) :
    ∃ t : Fin cfg1.N, (cfg1.win 5).flush t = true ∧ i ∈ ((cfg1.win 5).blk t).view.set := by
  have hi0 : (i 0).val < 8192 := idx2_lt0 i
  have hi1 : (i 1).val < 4096 := idx2_lt1 i
  let t : Fin cfg1.N := ⟨(i 0).val / 128, by show (i 0).val / 128 < 64; omega⟩
  obtain ⟨-, -, -, -, -, -, -, -, -, -, e50, e51⟩ := idx_facts t
  have htv : t.val = (i 0).val / 128 := rfl
  refine ⟨t, flush1_5 t, ?_⟩
  rw [mem_blk_out]
  intro a
  match a with
  | ⟨0, _⟩ => show win1_5.index t (0 : Fin 2) * 128 ≤ (i 0).val ∧ (i 0).val < win1_5.index t (0 : Fin 2) * 128 + 128; omega
  | ⟨1, _⟩ => show win1_5.index t (1 : Fin 2) * 4096 ≤ (i 1).val ∧ (i 1).val < win1_5.index t (1 : Fin 2) * 4096 + 4096; omega

/-- After the region the result array is `outArr` of the arrays the region found. -/
theorem out_array (c : Dev nD) : (dat1 V c).arrAt 5 cfg1.N
    = outArr (V c main_v8_0) (V c main_v2) (V c main_v8_1) (V c main_v6) (V c main_v7) :=
  (dat1 V c).arrAt_eq_of_cover 5 (outArr (V c main_v8_0) (V c main_v2) (V c main_v8_1) (V c main_v6) (V c main_v7))
    (fun t _ => flushed_out V c t) cover_out

end Cert.KernelIdeal.MatmulArray

end
-- ==== Proof.KernelValue.lean ====
/-
  The idealized kernel's result, read at an index.

  Putting the pieces together: the result buffer is the second region's array as [4, 2048, 4096]; that array is the
  matrix-product function of the quantized array and the column of scales the first region left, of the transposed
  weights, the scaled bias row and the weight scale the host wrote; and those two are the quantizing functions of the
  reshaped activations and normalisation weights. Row `2048·b + s` of the [8192, 4096] arrays is token (b, s), so at
  (b, s, o) the result is the token's dequantization BY THE PRODUCT (`Cert.TokenQuant.byProduct`) against row `o` of the
  weights, bias `o` and the weight scale.
-/
import proofs.«162988_j44513041056293_2_alg».proof.Proof.KernelEntry
import proofs.«162988_j44513041056293_2_alg».proof.Proof.QuantArray
import proofs.«162988_j44513041056293_2_alg».proof.Proof.MatmulArray
import Idealize.ShloMosaic.Lib.ValueLayout

set_option maxRecDepth 16384

noncomputable section

open scoped BigOperators

namespace Cert.KernelIdeal.Value

open Cert.KernelIdeal Cert.KernelIdeal.Gen Cert.TokenQuant
open Cert.KernelIdeal.QuantArray Cert.KernelIdeal.MatmulArray
open Idealize.ShloMosaic Idealize.ShloMosaic.TcCoe Idealize.ShloMosaic.ValueIdx Idealize.SL.Sem

/-! ## The layout operations of the host, read at an index -/

/-- The activations [4, 2048, 4096] as [8192, 4096]: row 2048·b + s is token (b, s). -/
theorem acts_row (x : S4x2048x4096.Idx → EReal) (b : Fin 4) (s : Fin 2048) (hr : b.val * 2048 + s.val < 8192) (k : Fin 4096) :
    shapeCast S8192x4096 x shapeCasts_S4x2048x4096_S8192x4096 (ix2 (⟨b.val * 2048 + s.val, hr⟩ : Fin 8192) k) = x (ix3 b s k) :=
  shapeCast_apply x _ _ _ (by rw [Shape.rowMajor_val_three, Shape.rowMajor_val_two]; rfl)

/-- And back: entry (b, s, o) of the [4, 2048, 4096] view is entry (2048·b + s, o). -/
theorem result_row (y : S8192x4096.Idx → EReal) (b : Fin 4) (s : Fin 2048) (hr : b.val * 2048 + s.val < 8192) (o : Fin 4096) :
    shapeCast S4x2048x4096 y shapeCasts_S8192x4096_S4x2048x4096 (ix3 b s o) = y (ix2 (⟨b.val * 2048 + s.val, hr⟩ : Fin 8192) o) :=
  shapeCast_apply y _ _ _ (by rw [Shape.rowMajor_val_two, Shape.rowMajor_val_three]; rfl)

/-- The scaled bias row at column `o`: the bias at `o` times the one weight scale. -/
theorem bias_at (bias : S4096.Idx → EReal) (ws : S1.Idx → EReal) (o : Fin 4096) :
    shapeCast S1x4096 (mulf (F := Ideal) (s := S4096) (φ := .f32) bias (broadcastInDim (α := EReal) S4096 ![0] bcast_S1_S4096_0 ws))
        shapeCasts_S4096_S1x4096 (ix2 (0 : Fin 1) o) = bias (ix1 o) * ws (ix1 (0 : Fin 1)) := by
  rw [shapeCast_a_1a_apply, mulf_apply]
  refine congrArg (bias (ix1 o) * ·) ?_
  exact broadcastInDim_apply _ bcast_S1_S4096_0 ws (ix1 o) (ix1 (0 : Fin 1)) (fun a => match a with
    | ⟨0, _⟩ => by show 0 = if (1 : Nat) = 1 then 0 else o.val; rw [if_pos rfl])

/-- The result function at (r, o), with the quantized array and the column spelt out. -/
theorem outArr_at (X : S8192x4096.Idx → EReal) (R : S1x4096.Idx → EReal) (Wt : S4096x4096.Idx → EReal)
    (B : S1x4096.Idx → EReal) (S : S1x1.Idx → EReal) (r : Fin 8192) (o : Fin 4096) :
    outArr (quantArr X R) Wt (invScaleArr X R) B S (ix2 r o)
      = (∑ k : Fin 4096, quant (fun k' : Fin 4096 => X (ix2 r k')) (fun k' : Fin 4096 => R (ix2 (0 : Fin 1) k')) k * Wt (ix2 k o))
          * (scale (fun k' : Fin 4096 => X (ix2 r k')) (fun k' : Fin 4096 => R (ix2 (0 : Fin 1) k')) * ((1 / 127 : ℝ) : EReal)
              * S (ix2 (0 : Fin 1) (0 : Fin 1)))
        + B (ix2 (0 : Fin 1) o) := rfl

variable (m : (ℓ : Loc nD τ sig) → Buf (Elt Ideal) ℓ) (ρ : Dev nD → PrngReg)

/-- The second region's array as one function of the argument arrays. -/
theorem product_eq (c : Dev nD) : (W3 m ρ c (Proc.devRef .tc main_v9) : S8192x4096.Idx → EReal)
    = outArr
        (quantArr (shapeCast S8192x4096 (m ((c : Thread nD τ).loc main_arg0)) shapeCasts_S4x2048x4096_S8192x4096)
          (shapeCast S1x4096 (m ((c : Thread nD τ).loc main_arg2)) shapeCasts_S4096_S1x4096))
        (truncf (F := Ideal) .bf16 (transpose S4096x4096 [1, 0] (m ((c : Thread nD τ).loc main_arg1)) transposes_S4096x4096_S4096x4096_1_0) bitsLt_bf16_f32)
        (invScaleArr (shapeCast S8192x4096 (m ((c : Thread nD τ).loc main_arg0)) shapeCasts_S4x2048x4096_S8192x4096)
          (shapeCast S1x4096 (m ((c : Thread nD τ).loc main_arg2)) shapeCasts_S4096_S1x4096))
        (shapeCast S1x4096 (mulf (F := Ideal) (s := S4096) (φ := .f32) (m ((c : Thread nD τ).loc main_arg3))
          (broadcastInDim (α := EReal) S4096 ![0] bcast_S1_S4096_0 (m ((c : Thread nD τ).loc main_arg4)))) shapeCasts_S4096_S1x4096)
        (shapeCast S1x1 (m ((c : Thread nD τ).loc main_arg4)) shapeCasts_S1_S1x1) := by
  rw [Entry.product, out_array (V2 m ρ) c, Entry.quantized, Entry.invScales, Entry.weightsT_kept, Entry.biasRow_kept,
    Entry.scale11_kept, quant_array (V1 m ρ) c, invScale_array (V1 m ρ) c, Entry.acts, Entry.normWeights, Entry.weightsT,
    Entry.biasRow, Entry.scale11]

/-- THE KERNEL AT (b, s, o): the token's dequantization by the product. -/
theorem result_at (c : Dev nD) (b : Fin 4) (s : Fin 2048) (o : Fin 4096) :
    (W4 m ρ c (Proc.devRef .tc main_v10) : S4x2048x4096.Idx → EReal) (ix3 b s o)
      = byProduct (fun k : Fin 4096 => m ((c : Thread nD τ).loc main_arg0) (ix3 b s k))
          (fun k : Fin 4096 => m ((c : Thread nD τ).loc main_arg2) (ix1 k))
          (fun k : Fin 4096 => m ((c : Thread nD τ).loc main_arg1) (ix2 o k))
          (m ((c : Thread nD τ).loc main_arg3) (ix1 o)) (m ((c : Thread nD τ).loc main_arg4) (ix1 (0 : Fin 1))) := by
  have hr : b.val * 2048 + s.val < 8192 := by have := b.isLt; have := s.isLt; omega
  rw [Entry.result, product_eq, result_row _ b s hr o, outArr_at, bias_at]
  have hrow : (fun k' : Fin 4096 => shapeCast S8192x4096 (m ((c : Thread nD τ).loc main_arg0)) shapeCasts_S4x2048x4096_S8192x4096
      (ix2 (⟨b.val * 2048 + s.val, hr⟩ : Fin 8192) k')) = fun k : Fin 4096 => m ((c : Thread nD τ).loc main_arg0) (ix3 b s k) :=
    funext fun k => acts_row _ b s hr k
  have hg : (fun k' : Fin 4096 => shapeCast S1x4096 (m ((c : Thread nD τ).loc main_arg2)) shapeCasts_S4096_S1x4096 (ix2 (0 : Fin 1) k'))
      = fun k : Fin 4096 => m ((c : Thread nD τ).loc main_arg2) (ix1 k) :=
    funext fun k => shapeCast_a_1a_apply _ _ (0 : Fin 1) k
  have hs : shapeCast S1x1 (m ((c : Thread nD τ).loc main_arg4)) shapeCasts_S1_S1x1 (ix2 (0 : Fin 1) (0 : Fin 1))
      = m ((c : Thread nD τ).loc main_arg4) (ix1 (0 : Fin 1)) := shapeCast_a_1a_apply _ _ (0 : Fin 1) (0 : Fin 1)
  rw [hrow, hg, hs]
  unfold byProduct
  refine congrArg₂ (· + ·) (congrArg₂ (· * ·) (Finset.sum_congr rfl fun k _ => ?_) rfl) rfl
  refine congrArg₂ (fun a z : EReal => a * z) rfl ?_
  rw [truncf_apply]
  exact transpose_ix2_apply _ _ k o

end Cert.KernelIdeal.Value

end
-- ==== Proof.RefValue.lean ====
/-
  The reference, read at an index: one token at a time.

  The reference normalises, quantizes, contracts with the weights, divides by the quantization scale, adds the bias and
  multiplies by the weight scale, all on [4, 2048, 4096] arrays. Read at (b, s, ·), every stage depends on the token's
  row `x[b, s, :]` only: the sum of squares and the maximum of absolute values are reductions along the last axis, and
  the broadcasts put a per-token number back on every lane. So each stage at (b, s, k) is the token mathematics'
  function of that row (`Cert.TokenQuant`), and the result at (b, s, o) is the dequantization by the quotient, against
  row `o` of the weights.
-/
import proofs.«162988_j44513041056293_2_alg».proof.Proof.RefReadPatched
import proofs.«162988_j44513041056293_2_alg».proof.Proof.TokenMath
import Idealize.ShloMosaic.PureOps.Reduce
import Idealize.ShloMosaic.PureOps.Ideal.Laws
import Idealize.ShloMosaic.Lib.ValueIdx

noncomputable section

open scoped BigOperators

namespace Cert.ReferenceIdeal.TokenValue

open Cert.ReferenceIdeal Cert.ReferenceIdeal.Gen Cert.ReferenceIdeal.ReadP Cert.TokenQuant
open Idealize.ShloMosaic Idealize.ShloMosaic.ValueIdx

variable (x0 : (⟨S4x2048x4096, .f32⟩ : BufTy).Contents (Elt Ideal)) (x1 : (⟨S4096x4096, .f32⟩ : BufTy).Contents (Elt Ideal))
  (x2 x3 : (⟨S4096, .f32⟩ : BufTy).Contents (Elt Ideal)) (x4 : (⟨S1, .f32⟩ : BufTy).Contents (Elt Ideal))

/-- The token's row. -/
abbrev tokenRow (b : Fin 4) (s : Fin 2048) : Fin 4096 → EReal := fun k => x0 (ix3 b s k)
/-- A flat vector as a function of its one coordinate. -/
abbrev flat (v : (⟨S4096, .f32⟩ : BufTy).Contents (Elt Ideal)) : Fin 4096 → EReal := fun k => v (ix1 k)

/-- The sum of squares along the last axis, at token (b, s). -/
theorem sumSq_at (b : Fin 4) (s : Fin 2048) :
    val_main_v1 (F := Ideal) x0 (ix2 b s) = ∑ k : Fin 4096, tokenRow x0 b s k * tokenRow x0 b s k := by
  rw [val_main_v1_apply]
  show Ideal.ofBits .f32 0x00000000#32 + _ = _
  rw [Ideal.ofBits_zero_f32, zero_add]
  refine Finset.sum_congr rfl fun k _ => ?_
  have e : idx_main_v1 (ix2 b s) k = ix3 b s k :=
    funext fun a => Fin.ext (by match a with | ⟨0, _⟩ => rfl | ⟨1, _⟩ => rfl | ⟨2, _⟩ => rfl)
  rw [val_main_v0_apply, e]
  rfl

/-- The reciprocal root of the mean square plus the constant, at token (b, s). -/
theorem normFactor_at (b : Fin 4) (s : Fin 2048) (u : Fin 1) :
    val_main_v7 (F := Ideal) x0 (ix3 b s u) = normFactor (tokenRow x0 b s) := by
  have e2 : idx_main_v2 (ix3 b s u) = ix2 b s :=
    funext fun a => Fin.ext (by match a with | ⟨0, _⟩ => rfl | ⟨1, _⟩ => rfl)
  rw [val_main_v7_apply, val_main_v6_apply, val_main_v4_apply, val_main_v2_apply, e2, sumSq_at, val_main_v3_apply,
    val_main_cst_0_apply, val_main_v5_apply, val_main_cst_1_apply]
  rfl

/-- The normalised, weighted activations at (b, s, k). -/
theorem normed_at (b : Fin 4) (s : Fin 2048) (k : Fin 4096) :
    val_main_v12 (F := Ideal) x0 x2 (ix3 b s k) = normed (tokenRow x0 b s) (flat x2) k := by
  have e8 : idx_main_v8 (ix3 b s k) = ix3 b s (0 : Fin 1) :=
    funext fun a => Fin.ext (by match a with | ⟨0, _⟩ => rfl | ⟨1, _⟩ => rfl | ⟨2, _⟩ => rfl)
  have e10 : idx_main_v10 (idx_main_v11 (ix3 b s k)) = ix1 k :=
    funext fun a => Fin.ext (by match a with | ⟨0, _⟩ => rfl)
  rw [val_main_v12_apply, val_main_v9_apply, val_main_v8_apply, e8, normFactor_at, val_main_v11_apply, val_main_v10_apply, e10]
  rfl

/-- The reduced index (b, s) with lane `k` put back is (b, s, k). -/
theorem lift_lane (h : S4x2048x4096.Reduces [2] S4x2048) (b : Fin 4) (s : Fin 2048) (k : Fin (S4x2048x4096.size 2)) :
    h.lift (ix2 b s) k = ix3 b s (⟨k.val, k.isLt⟩ : Fin 4096) := by
  funext c; apply Fin.ext
  fin_cases c <;> rfl

/-- The maximum of absolute values along the last axis, at token (b, s): the fold of `max` from −∞ over the row. -/
theorem absMax_at (b : Fin 4) (s : Fin 2048) :
    val_main_v14 (F := Ideal) x0 x2 (ix2 b s)
      = rowMax (fun k : Fin 4096 => max (normed (tokenRow x0 b s) (flat x2) k) (-(normed (tokenRow x0 b s) (flat x2) k))) := by
  have h : S4x2048x4096.Reduces [2] S4x2048 := by decide
  unfold val_main_v14
  rw [Host.reduce_eq_fold_single FloatOps.maximumf _ _ reducesTo_S4x2048x4096_S4x2048_d2 h h_S_]
  show (Finset.univ : Finset (Fin 4096)).fold max (Ideal.ofBits .f32 0xFF800000#32)
      (val_main_v13 (F := Ideal) x0 x2 ∘ h.lift (ix2 b s)) = _
  unfold rowMax
  refine congrArg (fun f => (Finset.univ : Finset (Fin 4096)).fold max (Ideal.ofBits .f32 0xFF800000#32) f) (funext fun k => ?_)
  show val_main_v13 (F := Ideal) x0 x2 (h.lift (ix2 b s) k) = _
  rw [lift_lane h b s k, val_main_v13_apply, normed_at]
  rfl

/-- The quantization scale's denominator at token (b, s). -/
theorem scale_at (b : Fin 4) (s : Fin 2048) (u : Fin 1) :
    val_main_v16 (F := Ideal) x0 x2 (ix3 b s u) = scale (tokenRow x0 b s) (flat x2) := by
  have e15 : idx_main_v15 (ix3 b s u) = ix2 b s :=
    funext fun a => Fin.ext (by match a with | ⟨0, _⟩ => rfl | ⟨1, _⟩ => rfl)
  rw [val_main_v16_apply, val_main_call0_v1_apply, val_main_call0_v0_apply, val_main_cst_3_apply, val_main_v15_apply, e15, absMax_at]
  unfold scale
  exact max_comm _ _

/-- 127 over that scale, at token (b, s). -/
theorem quantScale_at (b : Fin 4) (s : Fin 2048) (u : Fin 1) :
    val_main_v18 (F := Ideal) x0 x2 (ix3 b s u)
      = Ideal.div (Ideal.ofBits .f32 0x42FE0000#32) (scale (tokenRow x0 b s) (flat x2)) := by
  rw [val_main_v18_apply, val_main_v17_apply, val_main_cst_4_apply, scale_at]
  rfl

/-- The quantized activations at (b, s, k). -/
theorem quant_at (b : Fin 4) (s : Fin 2048) (k : Fin 4096) :
    val_main_v22 (F := Ideal) x0 x2 (ix3 b s k) = quant (tokenRow x0 b s) (flat x2) k := by
  have e19 : idx_main_v19 (ix3 b s k) = ix3 b s (0 : Fin 1) :=
    funext fun a => Fin.ext (by match a with | ⟨0, _⟩ => rfl | ⟨1, _⟩ => rfl | ⟨2, _⟩ => rfl)
  rw [val_main_v22_apply, val_main_call2_v4_apply, val_main_call2_v3_apply, val_main_cst_6_apply, val_main_call2_v2_apply,
    val_main_call2_v1_apply, val_main_call2_v0_apply, val_main_cst_5_apply, val_main_v21_apply, val_main_v20_apply,
    val_main_v19_apply, e19, normed_at, quantScale_at]
  rfl

/-- THE REFERENCE AT (b, s, o): the token's dequantization by the quotient, against row `o` of the weights. -/
theorem result_at (b : Fin 4) (s : Fin 2048) (o : Fin 4096) :
    val_main_v31 (F := Ideal) x0 x1 x2 x3 x4 (ix3 b s o)
      = byQuotient (tokenRow x0 b s) (flat x2) (fun k : Fin 4096 => x1 (ix2 o k)) (x3 (ix1 o)) (x4 (ix1 (0 : Fin 1))) := by
  have e24 : idx_main_v24 (ix3 b s o) = ix3 b s (0 : Fin 1) :=
    funext fun a => Fin.ext (by match a with | ⟨0, _⟩ => rfl | ⟨1, _⟩ => rfl | ⟨2, _⟩ => rfl)
  have e26 : idx_main_v26 (idx_main_v27 (ix3 b s o)) = ix1 o :=
    funext fun a => Fin.ext (by match a with | ⟨0, _⟩ => rfl)
  have e29 : idx_main_v29 (idx_main_v30 (ix3 b s o)) = ix1 (0 : Fin 1) :=
    funext fun a => Fin.ext (by match a with | ⟨0, _⟩ => rfl)
  have hsum : val_main_v23 (F := Ideal) x0 x1 x2 (ix3 b s o)
      = ∑ k : Fin 4096, quant (tokenRow x0 b s) (flat x2) k * x1 (ix2 o k) := by
    rw [val_main_v23_apply]
    refine Finset.sum_congr rfl fun k _ => ?_
    have el : lidx_main_v23 (ix3 b s o) k = ix3 b s k :=
      funext fun a => Fin.ext (by match a with | ⟨0, _⟩ => rfl | ⟨1, _⟩ => rfl | ⟨2, _⟩ => rfl)
    have er : ridx_main_v23 (ix3 b s o) k = ix2 o k :=
      funext fun a => Fin.ext (by match a with | ⟨0, _⟩ => rfl | ⟨1, _⟩ => rfl)
    rw [el, er, quant_at]
  rw [val_main_v31_apply, val_main_v28_apply, val_main_v25_apply, hsum, val_main_v24_apply, e24, quantScale_at,
    val_main_v27_apply, val_main_v26_apply, e26, val_main_v30_apply, val_main_v29_apply, e29]
  rfl

end Cert.ReferenceIdeal.TokenValue

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.FiniteInputs.lean ====
/-
  The precondition, read back: every entry of every argument is a real number.

  `finite_inputs` is the conjunction, over the five arguments, of "every entry's absolute value is below +∞". A
  conjunction of one-bit words is 1 only when each is; an "and" over all entries that is 1 had a 1 at every entry; and
  an extended real whose absolute value is below +∞ is neither infinity, so it is a real number.
-/
import proofs.«162988_j44513041056293_2_alg».proof.Pre_finite_inputs
import proofs.«162988_j44513041056293_2_alg».proof.Proof.Gen.Pre_finite_inputs
import proofs.«162988_j44513041056293_2_alg».proof.Proof.LibFiniteEReal
import Idealize.ShloMosaic.Lib.ReduceAll
import Idealize.ShloMosaic.Lib.Affine
import Idealize.ShloMosaic.Lib.ValueIdx

noncomputable section

namespace Cert.Pre_finite_inputs.Entries

open Cert.Pre_finite_inputs Cert.Pre_finite_inputs.Gen Idealize.ShloMosaic

instance : Subsingleton S_.Idx := ⟨fun a b => funext fun d => d.elim0⟩

/-- One argument's test: if "every entry's absolute value is below +∞" holds of an array, each entry is real. -/
theorem entry_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf (F := Ideal) .olt (Host.absf (F := Ideal) a)
        (broadcastInDim s ![] hb (constant (F := Ideal) S_ .f32 0x7F800000#32))) (constantI S_ 1 1#1) hr hu ValueIdx.ix0 = 1#1)
    (i : s.Idx) : ∃ r : ℝ, a i = r :=
  Cert.Lib.FiniteEReal.real_of_abs_lt (a i) (Host.reduce_andi_all _ _ hr hu _ h i)

/-- The precondition all ones: every entry of each of the five arguments is a real number. -/
theorem all_real (a0 : FVec Ideal S4x2048x4096 .f32) (a1 : FVec Ideal S4096x4096 .f32) (a2 a3 : FVec Ideal S4096 .f32)
    (a4 : FVec Ideal S1 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have h0 := congrFun h ValueIdx.ix0
  dsimp only [fn, fn_part1] at h0
  obtain ⟨h18, h22⟩ := IntOp.andi_eq_one.mp h0
  obtain ⟨h13, h17⟩ := IntOp.andi_eq_one.mp h18
  obtain ⟨h8, h12⟩ := IntOp.andi_eq_one.mp h13
  obtain ⟨h3, h7⟩ := IntOp.andi_eq_one.mp h8
  exact ⟨entry_real a0 _ _ _ h3, entry_real a1 _ _ _ h7, entry_real a2 _ _ _ h12, entry_real a3 _ _ _ h17,
    entry_real a4 _ _ _ h22⟩

end Cert.Pre_finite_inputs.Entries

end
-- ==== Proof.lean ====
/-
  The certificate of a quantized linear layer (BitNet-style: RMS-normalise each token, quantize it to integers in
  [−128, 127] by its largest absolute value, multiply by a ternary weight matrix, dequantize) written as two TensorCore
  kernels, against its jnp reference.

  The kernel program quantizes in one region (per token: the quantized row, and the scale `a` times the NAMED constant
  1/127) and multiplies in a second (`(q · Wᵀ) · (a/127 · s) + b·s`, the bias scaled by the host beforehand); the reference
  computes `((q · Wᵀ) / (127 / a) + b) · s`. At the ideal instance — floats are extended reals, every operation exact, a
  change of float format the identity — the two agree entry by entry when the inputs are finite:

    * the three frames are the generated ones (the reference's is its run with the result dropped);
    * `preserves` is the one ledger entry: the constant named `inv_127` denotes 1/127;
    * `algebraic`: the kernel's result at (b, s, o) is the token's dequantization by the product
      (Proof/KernelValue.lean, over the two regions' arrays read block by block), the reference's is the dequantization by
      the quotient (Proof/RefValue.lean, over the reference read one operation at a time), and for real inputs these are
      one number (Proof/TokenMath.lean: the field laws of ℝ; finiteness is what makes distributivity available).
-/
import proofs.«162988_j44513041056293_2_alg».proof.Defs
import proofs.«162988_j44513041056293_2_alg».proof.Proof.Gen.Kernel
import proofs.«162988_j44513041056293_2_alg».proof.Proof.Gen.Kernel.Skeleton
import proofs.«162988_j44513041056293_2_alg».proof.Proof.Gen.Kernel.Launch
import proofs.«162988_j44513041056293_2_alg».proof.Proof.Gen.Kernel.Points
import proofs.«162988_j44513041056293_2_alg».proof.Proof.Gen.Kernel.Frame
import proofs.«162988_j44513041056293_2_alg».proof.Proof.Gen.KernelIdeal
import proofs.«162988_j44513041056293_2_alg».proof.Proof.Gen.KernelIdeal.Skeleton
import proofs.«162988_j44513041056293_2_alg».proof.Proof.Gen.KernelIdeal.Launch
import proofs.«162988_j44513041056293_2_alg».proof.Proof.Gen.KernelIdeal.Points
import proofs.«162988_j44513041056293_2_alg».proof.Proof.Gen.KernelIdeal.Frame
import proofs.«162988_j44513041056293_2_alg».proof.Proof.Gen.ReferenceIdeal
import proofs.«162988_j44513041056293_2_alg».proof.Proof.Gen.Pre_finite_inputs
import proofs.«162988_j44513041056293_2_alg».proof.Proof.KernelRun
import proofs.«162988_j44513041056293_2_alg».proof.Proof.KernelValue
import proofs.«162988_j44513041056293_2_alg».proof.Proof.RefRunPatched
import proofs.«162988_j44513041056293_2_alg».proof.Proof.RefReadPatched
import proofs.«162988_j44513041056293_2_alg».proof.Proof.RefValue
import proofs.«162988_j44513041056293_2_alg».proof.Proof.FiniteInputs
import proofs.«162988_j44513041056293_2_alg».proof.Proof.TokenMath
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ledger's one entry: the table gives `"inv_127"` the value 1/127, which the printed constant is at the ideal
    instance. -/
theorem preserves : Cert.preserves_Kernel_KernelIdeal :=
  IdealRules.named_const.statement Cert.KernelIdeal.κ "inv_127" .f32 0x3C010204#32 ((1 / 127 : ℝ) : EReal) rfl

/-- Both idealized programs run, and from memories that agree on the arguments they end with the same result: entry
    (b, s, o) is token (b, s)'s dequantization against row `o` of the weights, by the product in the kernel and by the
    quotient in the reference, and these agree because every input entry is a real number. -/
theorem algebraic : Cert.algebraic_KernelIdeal_ReferenceIdeal := by
  intro m ρ m' ρ' hpre hagree
  refine ⟨fun c => Cert.KernelIdeal.Gen.W4 m ρ c (Proc.devRef .tc Cert.KernelIdeal.main_v10), Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v31_eq, (hagree c).1, (hagree c).2.1, (hagree c).2.2.1, (hagree c).2.2.2.1,
    (hagree c).2.2.2.2]
  obtain ⟨h0, h1, h2, h3, h4⟩ := Cert.Pre_finite_inputs.Entries.all_real _ _ _ _ _ (hpre c)
  refine funext fun i => ?_
  obtain ⟨b, s, o, rfl⟩ : ∃ (b : Fin 4) (s : Fin 2048) (o : Fin 4096), i = ix3 b s o := ⟨i 0, i 1, i 2, eq_ix3 i⟩
  rw [Cert.ReferenceIdeal.TokenValue.result_at]
  refine Eq.trans ?_ (Cert.KernelIdeal.Value.result_at m ρ c b s o).symm
  exact (Cert.TokenQuant.byProduct_eq_byQuotient _ _ _ _ _ (fun k => h0 _) (fun k => h2 _) (fun k => h1 _) (h3 _) (h4 _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
